-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x64 : Shape := ⟨2, ![256, 64]⟩
abbrev S64 : Shape := ⟨1, ![64]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x256 .f32) (main_arg1 : IVec S2x800000 32) (main_arg2 : FVec F S256x256 .f32) (main_arg3 : FVec F S256 .f32) (main_arg4 : FVec F S256x64 .f32) (main_arg5 : FVec F S64 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x64 .f32 := Host.absf main_arg4
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_arg5 main_v13 main_v16
-- ==== Kernel.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x64 : Shape := ⟨2, ![256, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S2000x256 : Shape := ⟨2, ![2000, 256]⟩
abbrev S800000x256 : Shape := ⟨2, ![800000, 256]⟩
abbrev S1x256 : Shape := ⟨2, ![1, 256]⟩
abbrev S50000x64 : Shape := ⟨2, ![50000, 64]⟩
abbrev S2000x64 : Shape := ⟨2, ![2000, 64]⟩
abbrev S800000x64 : Shape := ⟨2, ![800000, 64]⟩
abbrev S1x64 : Shape := ⟨2, ![1, 64]⟩

abbrev nBuf : Space → Nat
  | .hbm => 89
  | .vmem => 10
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x256, .f32⟩
  | .hbm, ⟨3, _⟩ => ⟨S256, .f32⟩
  | .hbm, ⟨4, _⟩ => ⟨S256x64, .f32⟩
  | .hbm, ⟨5, _⟩ => ⟨S64, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .f32⟩
  | .hbm, ⟨11, _⟩ => ⟨S800000, .f32⟩
  | .hbm, ⟨12, _⟩ => ⟨S_, .f32⟩
  | .hbm, ⟨13, _⟩ => ⟨S50000, .f32⟩
  | .hbm, ⟨14, _⟩ => ⟨S800000x1, .i32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S800000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000, .f32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000, .f32⟩
  | .hbm, ⟨46, _⟩ => ⟨S800000, .f32⟩
  | .hbm, ⟨47, _⟩ => ⟨S800000x1, .f32⟩
  | .hbm, ⟨48, _⟩ => ⟨S50000x256, .f32⟩
  | .hbm, ⟨49, _⟩ => ⟨S_, .i32⟩
  | .hbm, ⟨50, _⟩ => ⟨S800000, .i32⟩
  | .hbm, ⟨51, _⟩ => ⟨S800000, .i1⟩
  | .hbm, ⟨52, _⟩ => ⟨S_, .i32⟩
  | .hbm, ⟨53, _⟩ => ⟨S800000, .i32⟩
  | .hbm, ⟨54, _⟩ => ⟨S800000, .i32⟩
  | .hbm, ⟨55, _⟩ => ⟨S800000, .i32⟩
  | .hbm, ⟨56, _⟩ => ⟨S800000x1, .i32⟩
  | .hbm, ⟨57, _⟩ => ⟨S800000x256, .f32⟩
  | .hbm, ⟨58, _⟩ => ⟨S800000x256, .f32⟩
  | .hbm, ⟨59, _⟩ => ⟨S800000x256, .f32⟩
  | .hbm, ⟨60, _⟩ => ⟨S_, .f32⟩
  | .hbm, ⟨61, _⟩ => ⟨S50000x256, .f32⟩
  | .hbm, ⟨62, _⟩ => ⟨S800000x1, .i32⟩
  | .hbm, ⟨63, _⟩ => ⟨S50000x256, .f32⟩
  | .hbm, ⟨64, _⟩ => ⟨S1x256, .f32⟩
  | .hbm, ⟨65, _⟩ => ⟨S50000x256, .f32⟩
  | .hbm, ⟨66, _⟩ => ⟨S50000x256, .f32⟩
  | .hbm, ⟨67, _⟩ => ⟨S_, .f32⟩
  | .hbm, ⟨68, _⟩ => ⟨S50000x256, .f32⟩
  | .hbm, ⟨69, _⟩ => ⟨S50000x256, .f32⟩
  | .hbm, ⟨70, _⟩ => ⟨S50000x64, .f32⟩
  | .hbm, ⟨71, _⟩ => ⟨S_, .i32⟩
  | .hbm, ⟨72, _⟩ => ⟨S800000, .i32⟩
  | .hbm, ⟨73, _⟩ => ⟨S800000, .i1⟩
  | .hbm, ⟨74, _⟩ => ⟨S_, .i32⟩
  | .hbm, ⟨75, _⟩ => ⟨S800000, .i32⟩
  | .hbm, ⟨76, _⟩ => ⟨S800000, .i32⟩
  | .hbm, ⟨77, _⟩ => ⟨S800000, .i32⟩
  | .hbm, ⟨78, _⟩ => ⟨S800000x1, .i32⟩
  | .hbm, ⟨79, _⟩ => ⟨S800000x64, .f32⟩
  | .hbm, ⟨80, _⟩ => ⟨S800000x64, .f32⟩
  | .hbm, ⟨81, _⟩ => ⟨S800000x64, .f32⟩
  | .hbm, ⟨82, _⟩ => ⟨S_, .f32⟩
  | .hbm, ⟨83, _⟩ => ⟨S50000x64, .f32⟩
  | .hbm, ⟨84, _⟩ => ⟨S800000x1, .i32⟩
  | .hbm, ⟨85, _⟩ => ⟨S50000x64, .f32⟩
  | .hbm, ⟨86, _⟩ => ⟨S1x64, .f32⟩
  | .hbm, ⟨87, _⟩ => ⟨S50000x64, .f32⟩
  | .hbm, ⟨88, _⟩ => ⟨S50000x64, .f32⟩
  | .local _ .vmem, ⟨0, _⟩ => ⟨S2000x256, .f32⟩
  | .local _ .vmem, ⟨1, _⟩ => ⟨S2000x256, .f32⟩
  | .local _ .vmem, ⟨2, _⟩ => ⟨S256x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S256x64, .f32⟩
  | .local _ .vmem, ⟨8, _⟩ => ⟨S2000x64, .f32⟩
  | .local _ .vmem, ⟨9, _⟩ => ⟨S2000x64, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c : Ref sig .tc := ⟨.hbm, 28, rfl⟩
abbrev main_v17 : Ref sig .tc := ⟨.hbm, 29, rfl⟩
abbrev main_v18 : Ref sig .tc := ⟨.hbm, 30, rfl⟩
abbrev main_c_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_c_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_v34 : Ref sig .tc := ⟨.hbm, 50, rfl⟩
abbrev main_v35 : Ref sig .tc := ⟨.hbm, 51, rfl⟩
abbrev main_c_8 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_9 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_call0_cst : Ref sig .tc := ⟨.hbm, 67, rfl⟩
abbrev main_call0_v0 : Ref sig .tc := ⟨.hbm, 68, rfl⟩
abbrev main_v49 : Ref sig .tc := ⟨.hbm, 69, rfl⟩
abbrev main_v50 : Ref sig .tc := ⟨.hbm, 70, rfl⟩
abbrev main_c_10 : Ref sig .tc := ⟨.hbm, 71, rfl⟩
abbrev main_v51 : Ref sig .tc := ⟨.hbm, 72, rfl⟩
abbrev main_v52 : Ref sig .tc := ⟨.hbm, 73, rfl⟩
abbrev main_c_11 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_12 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  shapeCasts_S2000x256_S2000x256 : S2000x256.ShapeCasts S2000x256
  inb_S256x64_S256x64_0_0 : ∀ a, (![0, 0] : Fin 2 → Nat) a + S256x64.size a ≤ S256x64.size a
  h_S256x64 : 0 < S256x64.numel
  inb_S2000x64_S2000x64_0_0 : ∀ a, (![0, 0] : Fin 2 → Nat) a + S2000x64.size a ≤ S2000x64.size a
  h_S2000x64 : 0 < S2000x64.numel
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S2000x256_S256x256_S2000x256_1_0_0_1_n_n_wf : DotDims.WF S2000x256 S256x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x64_S2000x64_1_0_0_1_n_n_wf : DotDims.WF S2000x256 S256x64 S2000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x64.size a ≤ S256x64.size a
  hwx1_1 : ∀ i : grid1.Coords, EltTy.bits .f32 = 32 ∨ (Rect.block (s := S256x64) S256x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S50000x64.size a
  hwx1_2 : ∀ i : grid1.Coords, EltTy.bits .f32 = 32 ∨ (Rect.block (s := S50000x64) S2000x64.size (cc1_transform_2 i) (hinb1_2 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x64_S2000x64_1_0_0_1_n_n : DotDims S2000x256 S256x64 S2000x64 where
  lhsContracting := [1]
  rhsContracting := [0]
  lhsNonContracting := [0]
  rhsNonContracting := [1]
  lhsBatch := []
  rhsBatch := []
  wf := dot_S2000x256_S256x64_S2000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S256x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S2000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x64 : Shape := ⟨2, ![256, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x256 : Shape := ⟨2, ![800000, 256]⟩
abbrev S1x256 : Shape := ⟨2, ![1, 256]⟩
abbrev S50000x64 : Shape := ⟨2, ![50000, 64]⟩
abbrev S800000x64 : Shape := ⟨2, ![800000, 64]⟩
abbrev S1x64 : Shape := ⟨2, ![1, 64]⟩

abbrev nBuf : Space → Nat
  | .hbm => 89
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x256, .f32⟩
  | .hbm, ⟨3, _⟩ => ⟨S256, .f32⟩
  | .hbm, ⟨4, _⟩ => ⟨S256x64, .f32⟩
  | .hbm, ⟨5, _⟩ => ⟨S64, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .f32⟩
  | .hbm, ⟨11, _⟩ => ⟨S800000, .f32⟩
  | .hbm, ⟨12, _⟩ => ⟨S_, .f32⟩
  | .hbm, ⟨13, _⟩ => ⟨S50000, .f32⟩
  | .hbm, ⟨14, _⟩ => ⟨S800000x1, .i32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S800000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000, .f32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000, .f32⟩
  | .hbm, ⟨46, _⟩ => ⟨S800000, .f32⟩
  | .hbm, ⟨47, _⟩ => ⟨S800000x1, .f32⟩
  | .hbm, ⟨48, _⟩ => ⟨S50000x256, .f32⟩
  | .hbm, ⟨49, _⟩ => ⟨S_, .i32⟩
  | .hbm, ⟨50, _⟩ => ⟨S800000, .i32⟩
  | .hbm, ⟨51, _⟩ => ⟨S800000, .i1⟩
  | .hbm, ⟨52, _⟩ => ⟨S_, .i32⟩
  | .hbm, ⟨53, _⟩ => ⟨S800000, .i32⟩
  | .hbm, ⟨54, _⟩ => ⟨S800000, .i32⟩
  | .hbm, ⟨55, _⟩ => ⟨S800000, .i32⟩
  | .hbm, ⟨56, _⟩ => ⟨S800000x1, .i32⟩
  | .hbm, ⟨57, _⟩ => ⟨S800000x256, .f32⟩
  | .hbm, ⟨58, _⟩ => ⟨S800000x256, .f32⟩
  | .hbm, ⟨59, _⟩ => ⟨S800000x256, .f32⟩
  | .hbm, ⟨60, _⟩ => ⟨S_, .f32⟩
  | .hbm, ⟨61, _⟩ => ⟨S50000x256, .f32⟩
  | .hbm, ⟨62, _⟩ => ⟨S800000x1, .i32⟩
  | .hbm, ⟨63, _⟩ => ⟨S50000x256, .f32⟩
  | .hbm, ⟨64, _⟩ => ⟨S1x256, .f32⟩
  | .hbm, ⟨65, _⟩ => ⟨S50000x256, .f32⟩
  | .hbm, ⟨66, _⟩ => ⟨S50000x256, .f32⟩
  | .hbm, ⟨67, _⟩ => ⟨S_, .f32⟩
  | .hbm, ⟨68, _⟩ => ⟨S50000x256, .f32⟩
  | .hbm, ⟨69, _⟩ => ⟨S50000x256, .f32⟩
  | .hbm, ⟨70, _⟩ => ⟨S50000x64, .f32⟩
  | .hbm, ⟨71, _⟩ => ⟨S_, .i32⟩
  | .hbm, ⟨72, _⟩ => ⟨S800000, .i32⟩
  | .hbm, ⟨73, _⟩ => ⟨S800000, .i1⟩
  | .hbm, ⟨74, _⟩ => ⟨S_, .i32⟩
  | .hbm, ⟨75, _⟩ => ⟨S800000, .i32⟩
  | .hbm, ⟨76, _⟩ => ⟨S800000, .i32⟩
  | .hbm, ⟨77, _⟩ => ⟨S800000, .i32⟩
  | .hbm, ⟨78, _⟩ => ⟨S800000x1, .i32⟩
  | .hbm, ⟨79, _⟩ => ⟨S800000x64, .f32⟩
  | .hbm, ⟨80, _⟩ => ⟨S800000x64, .f32⟩
  | .hbm, ⟨81, _⟩ => ⟨S800000x64, .f32⟩
  | .hbm, ⟨82, _⟩ => ⟨S_, .f32⟩
  | .hbm, ⟨83, _⟩ => ⟨S50000x64, .f32⟩
  | .hbm, ⟨84, _⟩ => ⟨S800000x1, .i32⟩
  | .hbm, ⟨85, _⟩ => ⟨S50000x64, .f32⟩
  | .hbm, ⟨86, _⟩ => ⟨S1x64, .f32⟩
  | .hbm, ⟨87, _⟩ => ⟨S50000x64, .f32⟩
  | .hbm, ⟨88, _⟩ => ⟨S50000x64, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c : Ref sig .tc := ⟨.hbm, 28, rfl⟩
abbrev main_v17 : Ref sig .tc := ⟨.hbm, 29, rfl⟩
abbrev main_v18 : Ref sig .tc := ⟨.hbm, 30, rfl⟩
abbrev main_c_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_c_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_v34 : Ref sig .tc := ⟨.hbm, 50, rfl⟩
abbrev main_v35 : Ref sig .tc := ⟨.hbm, 51, rfl⟩
abbrev main_c_8 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_9 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_call0_cst : Ref sig .tc := ⟨.hbm, 67, rfl⟩
abbrev main_call0_v0 : Ref sig .tc := ⟨.hbm, 68, rfl⟩
abbrev main_v49 : Ref sig .tc := ⟨.hbm, 69, rfl⟩
abbrev main_v50 : Ref sig .tc := ⟨.hbm, 70, rfl⟩
abbrev main_c_10 : Ref sig .tc := ⟨.hbm, 71, rfl⟩
abbrev main_v51 : Ref sig .tc := ⟨.hbm, 72, rfl⟩
abbrev main_v52 : Ref sig .tc := ⟨.hbm, 73, rfl⟩
abbrev main_c_11 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_12 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S50000x256_S256x256_S50000x256_1_0_0_1_n_n_wf : DotDims.WF S50000x256 S256x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x64_S50000x64_1_0_0_1_n_n_wf : DotDims.WF S50000x256 S256x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.Run.lean ====
/-
  The idealized kernel program as a whole: two matmul regions among stretches of host operations. Every weakly
  fair execution terminates, and every unscoped buffer of a core then holds what the fold of the program's
  segments leaves in it — the launch contents pushed through the host operations before the first region, that
  region's write-backs, the host operations between the regions, the second region's write-backs and the host
  operations after it. The frame claim keeps of this only the argument arrays; a value claim also needs the result
  buffer, so the run is stated here once for every buffer, and the result and the arguments are read off it.
-/
import proofs.«169771_j18193481466190_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, and every unscoped buffer of every core ends at the
    contents the last segment boundary names. -/
theorem run_buffers : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- The run read at the result buffer and at the six arguments: the result holds what the host operations after
    the second region leave in it, and every argument its launch contents. -/
theorem run_result : θ_run defs (onTc (τ := τ) (main (F := F))) ⟨m, fun _ => 0, ρ⟩ (fun r => ∀ c : Dev nD,
      r.2.mem ((c.tc : Thread nD τ).loc main_v65) = W6 m ρ c (Proc.devRef .tc main_v65)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun s h c =>
      ⟨h c _ (mem_uc main_v65 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)
    (run_buffers m ρ)

end Cert.KernelIdeal.Whole

end
-- ==== Proof.Dot0.lean ====
/-
  One block of the first layer's dense product, read at an entry.

  The kernel body multiplies a block of 2000 rows of the left operand by the whole right operand (256 × 256) into a zero
  accumulator. At the ideal values a change of float format is the identity, so entry (p, q) of the block is the sum
  over k < 256 of left(p, k) · right(k, q). The reference's whole product at entry i is the same kind of sum over k of
  left(i₀, k) · right(k, i₁). When the block's row p is row i₀ of the whole left operand and column q is column i₁, the
  two sums agree term by term; no law of the extended reals is used beyond 0 + s = s for the zero accumulator.
-/
import proofs.«169771_j18193481466190_1_alg».proof.Proof.Gen.KernelIdeal.Skeleton
import proofs.«169771_j18193481466190_1_alg».proof.Proof.Gen.ReferenceIdeal.Read
import Idealize.ShloMosaic.Lib.ValueIdx
import Idealize.ShloMosaic.Lib.Pipeline.Value
import Idealize.ShloMosaic.PureOps.Ideal.Laws

noncomputable section

namespace Cert.Gcn.Dot0

open Idealize.ShloMosaic Idealize.ShloMosaic.TcCoe Idealize.ShloMosaic.ValueIdx

/-- The block product's contraction: the left operand is read in the output's row, -/
theorem lhs_row (y : Cert.KernelIdeal.S2000x256.Idx) (q : Cert.KernelIdeal.dot_S2000x256_S256x256_S2000x256_1_0_0_1_n_n.contr.Idx) :
    (Cert.KernelIdeal.dot_S2000x256_S256x256_S2000x256_1_0_0_1_n_n.lhsIdx y q 0).val = (y 0).val := by
  unfold DotDims.lhsIdx
  rw [dif_neg (show ¬(0 : Fin Cert.KernelIdeal.S2000x256.rank) ∈ Cert.KernelIdeal.dot_S2000x256_S256x256_S2000x256_1_0_0_1_n_n.lhsBatch by decide), dif_pos (show (0 : Fin Cert.KernelIdeal.S2000x256.rank) ∈ Cert.KernelIdeal.dot_S2000x256_S256x256_S2000x256_1_0_0_1_n_n.lhsNonContracting by decide)]
  rfl
/-- at the contracted column; -/
theorem lhs_col (y : Cert.KernelIdeal.S2000x256.Idx) (q : Cert.KernelIdeal.dot_S2000x256_S256x256_S2000x256_1_0_0_1_n_n.contr.Idx) :
    (Cert.KernelIdeal.dot_S2000x256_S256x256_S2000x256_1_0_0_1_n_n.lhsIdx y q 1).val = (q ⟨0, by decide⟩).val :=
  Cert.KernelIdeal.dot_S2000x256_S256x256_S2000x256_1_0_0_1_n_n.lhsIdx_val_of_single rfl y q
/-- the right operand at the contracted row, -/
theorem rhs_row (y : Cert.KernelIdeal.S2000x256.Idx) (q : Cert.KernelIdeal.dot_S2000x256_S256x256_S2000x256_1_0_0_1_n_n.contr.Idx) :
    (Cert.KernelIdeal.dot_S2000x256_S256x256_S2000x256_1_0_0_1_n_n.rhsIdx y q 0).val = (q ⟨0, by decide⟩).val :=
  Cert.KernelIdeal.dot_S2000x256_S256x256_S2000x256_1_0_0_1_n_n.rhsIdx_val_of_single rfl y q
/-- in the output's column. -/
theorem rhs_col (y : Cert.KernelIdeal.S2000x256.Idx) (q : Cert.KernelIdeal.dot_S2000x256_S256x256_S2000x256_1_0_0_1_n_n.contr.Idx) :
    (Cert.KernelIdeal.dot_S2000x256_S256x256_S2000x256_1_0_0_1_n_n.rhsIdx y q 1).val = (y 1).val := by
  unfold DotDims.rhsIdx
  rw [dif_neg (show ¬(1 : Fin Cert.KernelIdeal.S256x256.rank) ∈ Cert.KernelIdeal.dot_S2000x256_S256x256_S2000x256_1_0_0_1_n_n.rhsBatch by decide), dif_pos (show (1 : Fin Cert.KernelIdeal.S256x256.rank) ∈ Cert.KernelIdeal.dot_S2000x256_S256x256_S2000x256_1_0_0_1_n_n.rhsNonContracting by decide)]
  rfl

/-- The reference's whole product at an entry: the sum over the 256 contracted positions of left(i₀, k) · right(k, i₁),
    for any two operands. -/
theorem whole_apply (X : FVec Ideal Cert.ReferenceIdeal.S50000x256 .f32)
    (Wt : FVec Ideal Cert.ReferenceIdeal.S256x256 .f32) (i : Cert.ReferenceIdeal.S50000x256.Idx) :
    Host.dotGeneral (F := Ideal) Cert.ReferenceIdeal.dot_S50000x256_S256x256_S50000x256_1_0_0_1_n_n none X Wt i
      = ∑ k : Fin 256, X (Cert.ReferenceIdeal.Read.lidx_main_v33 i k) * Wt (Cert.ReferenceIdeal.Read.ridx_main_v33 i k) := by
  simp only [Host.dotGeneral]
  rw [Ideal.dotGeneral_apply, ← Equiv.sum_comp (contrEquiv1 Cert.ReferenceIdeal.dot_S50000x256_S256x256_S50000x256_1_0_0_1_n_n 256 rfl rfl).symm]
  refine Finset.sum_congr rfl fun k _ => ?_
  have hk := contrEquiv1_symm_val Cert.ReferenceIdeal.dot_S50000x256_S256x256_S50000x256_1_0_0_1_n_n 256 rfl rfl k
  have el : Cert.ReferenceIdeal.dot_S50000x256_S256x256_S50000x256_1_0_0_1_n_n.lhsIdx i ((contrEquiv1 Cert.ReferenceIdeal.dot_S50000x256_S256x256_S50000x256_1_0_0_1_n_n 256 rfl rfl).symm k) = Cert.ReferenceIdeal.Read.lidx_main_v33 i k := funext fun a => Fin.ext (by
    match a with
    | ⟨0, _⟩ => exact Cert.ReferenceIdeal.Read.lhs_main_v33_0 _ _
    | ⟨1, _⟩ => exact (Cert.ReferenceIdeal.Read.lhs_main_v33_1 _ _).trans hk)
  have er : Cert.ReferenceIdeal.dot_S50000x256_S256x256_S50000x256_1_0_0_1_n_n.rhsIdx i ((contrEquiv1 Cert.ReferenceIdeal.dot_S50000x256_S256x256_S50000x256_1_0_0_1_n_n 256 rfl rfl).symm k) = Cert.ReferenceIdeal.Read.ridx_main_v33 i k := funext fun a => Fin.ext (by
    match a with
    | ⟨0, _⟩ => exact (Cert.ReferenceIdeal.Read.rhs_main_v33_0 _ _).trans hk
    | ⟨1, _⟩ => exact Cert.ReferenceIdeal.Read.rhs_main_v33_1 _ _)
  rw [el, er]

/-- Entry `y` of the block the body stores is entry `i` of the whole product of `X` and `Wt`, as soon as the left block's
    row `y₀` is row `i₀` of `X` (`h0`) and the right block's column `y₁` is column `i₁` of `Wt` (`h1`), position by position
    along the contraction. -/
theorem block_entry (X : FVec Ideal Cert.ReferenceIdeal.S50000x256 .f32)
    (Wt : FVec Ideal Cert.ReferenceIdeal.S256x256 .f32)
    (x0 : Vec Ideal Cert.KernelIdeal.S2000x256 .f32) (x1 : Vec Ideal Cert.KernelIdeal.S256x256 .f32)
    (y : Cert.KernelIdeal.S2000x256.Idx) (i : Cert.ReferenceIdeal.S50000x256.Idx)
    (h0 : ∀ (a : Cert.KernelIdeal.S2000x256.Idx) (k : Fin 256), (a 0).val = (y 0).val → (a 1).val = k.val →
      x0 a = X (Cert.ReferenceIdeal.Read.lidx_main_v33 i k))
    (h1 : ∀ (a : Cert.KernelIdeal.S256x256.Idx) (k : Fin 256), (a 0).val = k.val → (a 1).val = (y 1).val →
      x1 a = Wt (Cert.ReferenceIdeal.Read.ridx_main_v33 i k)) :
    Cert.KernelIdeal.Gen.k0_pay1 (F := Ideal) x0 x1 y = Host.dotGeneral (F := Ideal) Cert.ReferenceIdeal.dot_S50000x256_S256x256_S50000x256_1_0_0_1_n_n none X Wt i := by
  rw [whole_apply]
  unfold Cert.KernelIdeal.Gen.k0_pay1
  refine (Ideal.matmul_constant_zero_apply Cert.KernelIdeal.dot_S2000x256_S256x256_S2000x256_1_0_0_1_n_n none _ _ y).trans ?_
  rw [← Equiv.sum_comp (contrEquiv1 Cert.KernelIdeal.dot_S2000x256_S256x256_S2000x256_1_0_0_1_n_n 256 rfl rfl).symm]
  refine Finset.sum_congr rfl fun k _ => ?_
  have hk := contrEquiv1_symm_val Cert.KernelIdeal.dot_S2000x256_S256x256_S2000x256_1_0_0_1_n_n 256 rfl rfl k
  show x0 _ * x1 _ = _
  rw [h0 _ k (lhs_row _ _) ((lhs_col _ _).trans hk), h1 _ k ((rhs_row _ _).trans hk) (rhs_col _ _)]

end Cert.Gcn.Dot0

end
-- ==== Proof.Region0.lean ====
/-
  The first matmul region, from its blocks to its output array.

  The grid has 25 points; point t reads rows 2000·t … 2000·t + 1999 of the left operand and the whole right operand,
  and writes back rows 2000·t … 2000·t + 1999 of the output. Each written block is the matching block of the whole
  product of the two operand arrays as the region finds them (one entry at a time, by the block-entry lemma), and the
  25 blocks cover all 50000 rows: row r lies in the block of point r / 2000. So after the region the output array is
  the whole product.
-/
import proofs.«169771_j18193481466190_1_alg».proof.Proof.Gen.KernelIdeal.Frame
import proofs.«169771_j18193481466190_1_alg».proof.Proof.Dot0
import Idealize.ShloMosaic.Lib.Pipeline.Value

set_option maxRecDepth 16384

noncomputable section

namespace Cert.Gcn.Region0

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The whole product of the two operand arrays as the region finds them. -/
abbrev product (c : Dev nD) : Buf (Elt Ideal) ((c : Thread nD τ).loc main_v33) :=
  Host.dotGeneral (F := Ideal) (φ₁ := .f32) (φ₂ := .f32) Cert.ReferenceIdeal.dot_S50000x256_S256x256_S50000x256_1_0_0_1_n_n none (V c main_arg0) (V c main_arg2)

/-- The index maps over the 25 points: the left operand's row block moves with the output's, the right operand stays
    whole, and every block sits in column block 0. -/
theorem idx_facts : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) ≤ 24 :=
  (by decide +kernel : ∀ t : Fin grid0.N, _)

/-- Every row block is some point's. -/
theorem idx_onto : ∀ q0 : Fin 25, ∃ t : Fin cfg0.N, win0_2.index t = ![q0.val, 0] :=
  (by decide +kernel : ∀ q0 : Fin 25, ∃ t : Fin grid0.N, win0_2.index t = ![q0.val, 0])

/-- What point `t` writes back is block `t` of the whole product. -/
theorem flushed_eq (c : Dev nD) (t : Fin cfg0.N) :
    (dat0 V c).flushed 2 t = ((cfg0.win 2).blk t).view.read (Elt Ideal) (product V c) := by
  show (cfg0.win 2).cut (grid0.coords t) ((dat0 V c).after 2 t) = _
  rw [after0_2]
  unfold out0_2
  rw [View.canon_unit_zero hz]
  simp only [View.ld_unit_zero (S := S2000x256) hz, View.ld_unit_zero (S := S256x256) hz]
  obtain ⟨e0, e1, e2, e3, e4, e5⟩ := idx_facts t
  funext y
  show k0_pay1 (F := Ideal) (iblk0 V c 0 t) (iblk0 V c 1 t) y = product V c (((cfg0.win 2).blk t).view.emb y)
  refine Cert.Gcn.Dot0.block_entry (V c main_arg0) (V c main_arg2) (iblk0 V c 0 t) (iblk0 V c 1 t) y _ (fun a k ha0 ha1 => ?_) (fun a k ha0 ha1 => ?_)
  · show V c main_arg0 (((cfg0.win 0).blk t).view.emb a) = V c main_arg0 (Cert.ReferenceIdeal.Read.lidx_main_v33 (((cfg0.win 2).blk t).view.emb y) k)
    refine congrArg (V c main_arg0) ?_
    funext d; apply Fin.ext
    match d with
    | ⟨0, _⟩ => show win0_0.index t (0 : Fin 2) * 2000 + 1 * (a 0).val = win0_2.index t (0 : Fin 2) * 2000 + 1 * (y 0).val; omega
    | ⟨1, _⟩ => show win0_0.index t (1 : Fin 2) * 256 + 1 * (a 1).val = k.val; omega
  · show V c main_arg2 (((cfg0.win 1).blk t).view.emb a) = V c main_arg2 (Cert.ReferenceIdeal.Read.ridx_main_v33 (((cfg0.win 2).blk t).view.emb y) k)
    refine congrArg (V c main_arg2) ?_
    funext d; apply Fin.ext
    match d with
    | ⟨0, _⟩ => show win0_1.index t (0 : Fin 2) * 256 + 1 * (a 0).val = k.val; omega
    | ⟨1, _⟩ => show win0_1.index t (1 : Fin 2) * 256 + 1 * (a 1).val = win0_2.index t (1 : Fin 2) * 256 + 1 * (y 1).val; omega

/-- An index of the output array is in point `t`'s block iff each coordinate is in the block's range on its axis. -/
theorem mem_blk (t : Fin cfg0.N) (i : S50000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v33).slice (win0_2.rect t)).set ↔ _
  rw [View.set_slice_whole, Rect.mem_set_unit]
  exact Iff.rfl

/-- Row r of the output lies in the block of point r / 2000. -/
theorem cover (i : S50000x256.Idx) : ∃ t : Fin cfg0.N, (cfg0.win 2).flush t = true ∧ i ∈ ((cfg0.win 2).blk t).view.set := by
  have hi0 : (i 0).val < 50000 := (i 0).isLt
  have hi1 : (i 1).val < 256 := (i 1).isLt
  obtain ⟨t, ht⟩ := idx_onto ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 256 ≤ (i 1).val ∧ (i 1).val < win0_2.index t (1 : Fin 2) * 256 + 256; omega

/-- After the region its output array is the whole product of its operand arrays. -/
theorem final (c : Dev nD) : (dat0 V c).arrAt 2 cfg0.N = product V c :=
  (dat0 V c).arrAt_eq_of_cover 2 (product V c) (fun t _ => flushed_eq V c t) cover

end Cert.Gcn.Region0

end
-- ==== Proof.Dot1.lean ====
/-
  One block of the second layer's dense product, read at an entry.

  The kernel body multiplies a block of 2000 rows of the left operand by the whole right operand (256 × 64) into a zero
  accumulator. At the ideal values a change of float format is the identity, so entry (p, q) of the block is the sum
  over k < 256 of left(p, k) · right(k, q). The reference's whole product at entry i is the same kind of sum over k of
  left(i₀, k) · right(k, i₁). When the block's row p is row i₀ of the whole left operand and column q is column i₁, the
  two sums agree term by term; no law of the extended reals is used beyond 0 + s = s for the zero accumulator.
-/
import proofs.«169771_j18193481466190_1_alg».proof.Proof.Gen.KernelIdeal.Skeleton
import proofs.«169771_j18193481466190_1_alg».proof.Proof.Gen.ReferenceIdeal.Read
import Idealize.ShloMosaic.Lib.ValueIdx
import Idealize.ShloMosaic.Lib.Pipeline.Value
import Idealize.ShloMosaic.PureOps.Ideal.Laws

noncomputable section

namespace Cert.Gcn.Dot1

open Idealize.ShloMosaic Idealize.ShloMosaic.TcCoe Idealize.ShloMosaic.ValueIdx

/-- The block product's contraction: the left operand is read in the output's row, -/
theorem lhs_row (y : Cert.KernelIdeal.S2000x64.Idx) (q : Cert.KernelIdeal.dot_S2000x256_S256x64_S2000x64_1_0_0_1_n_n.contr.Idx) :
    (Cert.KernelIdeal.dot_S2000x256_S256x64_S2000x64_1_0_0_1_n_n.lhsIdx y q 0).val = (y 0).val := by
  unfold DotDims.lhsIdx
  rw [dif_neg (show ¬(0 : Fin Cert.KernelIdeal.S2000x256.rank) ∈ Cert.KernelIdeal.dot_S2000x256_S256x64_S2000x64_1_0_0_1_n_n.lhsBatch by decide), dif_pos (show (0 : Fin Cert.KernelIdeal.S2000x256.rank) ∈ Cert.KernelIdeal.dot_S2000x256_S256x64_S2000x64_1_0_0_1_n_n.lhsNonContracting by decide)]
  rfl
/-- at the contracted column; -/
theorem lhs_col (y : Cert.KernelIdeal.S2000x64.Idx) (q : Cert.KernelIdeal.dot_S2000x256_S256x64_S2000x64_1_0_0_1_n_n.contr.Idx) :
    (Cert.KernelIdeal.dot_S2000x256_S256x64_S2000x64_1_0_0_1_n_n.lhsIdx y q 1).val = (q ⟨0, by decide⟩).val :=
  Cert.KernelIdeal.dot_S2000x256_S256x64_S2000x64_1_0_0_1_n_n.lhsIdx_val_of_single rfl y q
/-- the right operand at the contracted row, -/
theorem rhs_row (y : Cert.KernelIdeal.S2000x64.Idx) (q : Cert.KernelIdeal.dot_S2000x256_S256x64_S2000x64_1_0_0_1_n_n.contr.Idx) :
    (Cert.KernelIdeal.dot_S2000x256_S256x64_S2000x64_1_0_0_1_n_n.rhsIdx y q 0).val = (q ⟨0, by decide⟩).val :=
  Cert.KernelIdeal.dot_S2000x256_S256x64_S2000x64_1_0_0_1_n_n.rhsIdx_val_of_single rfl y q
/-- in the output's column. -/
theorem rhs_col (y : Cert.KernelIdeal.S2000x64.Idx) (q : Cert.KernelIdeal.dot_S2000x256_S256x64_S2000x64_1_0_0_1_n_n.contr.Idx) :
    (Cert.KernelIdeal.dot_S2000x256_S256x64_S2000x64_1_0_0_1_n_n.rhsIdx y q 1).val = (y 1).val := by
  unfold DotDims.rhsIdx
  rw [dif_neg (show ¬(1 : Fin Cert.KernelIdeal.S256x64.rank) ∈ Cert.KernelIdeal.dot_S2000x256_S256x64_S2000x64_1_0_0_1_n_n.rhsBatch by decide), dif_pos (show (1 : Fin Cert.KernelIdeal.S256x64.rank) ∈ Cert.KernelIdeal.dot_S2000x256_S256x64_S2000x64_1_0_0_1_n_n.rhsNonContracting by decide)]
  rfl

/-- The reference's whole product at an entry: the sum over the 256 contracted positions of left(i₀, k) · right(k, i₁),
    for any two operands. -/
theorem whole_apply (X : FVec Ideal Cert.ReferenceIdeal.S50000x256 .f32)
    (Wt : FVec Ideal Cert.ReferenceIdeal.S256x64 .f32) (i : Cert.ReferenceIdeal.S50000x64.Idx) :
    Host.dotGeneral (F := Ideal) Cert.ReferenceIdeal.dot_S50000x256_S256x64_S50000x64_1_0_0_1_n_n none X Wt i
      = ∑ k : Fin 256, X (Cert.ReferenceIdeal.Read.lidx_main_v50 i k) * Wt (Cert.ReferenceIdeal.Read.ridx_main_v50 i k) := by
  simp only [Host.dotGeneral]
  rw [Ideal.dotGeneral_apply, ← Equiv.sum_comp (contrEquiv1 Cert.ReferenceIdeal.dot_S50000x256_S256x64_S50000x64_1_0_0_1_n_n 256 rfl rfl).symm]
  refine Finset.sum_congr rfl fun k _ => ?_
  have hk := contrEquiv1_symm_val Cert.ReferenceIdeal.dot_S50000x256_S256x64_S50000x64_1_0_0_1_n_n 256 rfl rfl k
  have el : Cert.ReferenceIdeal.dot_S50000x256_S256x64_S50000x64_1_0_0_1_n_n.lhsIdx i ((contrEquiv1 Cert.ReferenceIdeal.dot_S50000x256_S256x64_S50000x64_1_0_0_1_n_n 256 rfl rfl).symm k) = Cert.ReferenceIdeal.Read.lidx_main_v50 i k := funext fun a => Fin.ext (by
    match a with
    | ⟨0, _⟩ => exact Cert.ReferenceIdeal.Read.lhs_main_v50_0 _ _
    | ⟨1, _⟩ => exact (Cert.ReferenceIdeal.Read.lhs_main_v50_1 _ _).trans hk)
  have er : Cert.ReferenceIdeal.dot_S50000x256_S256x64_S50000x64_1_0_0_1_n_n.rhsIdx i ((contrEquiv1 Cert.ReferenceIdeal.dot_S50000x256_S256x64_S50000x64_1_0_0_1_n_n 256 rfl rfl).symm k) = Cert.ReferenceIdeal.Read.ridx_main_v50 i k := funext fun a => Fin.ext (by
    match a with
    | ⟨0, _⟩ => exact (Cert.ReferenceIdeal.Read.rhs_main_v50_0 _ _).trans hk
    | ⟨1, _⟩ => exact Cert.ReferenceIdeal.Read.rhs_main_v50_1 _ _)
  rw [el, er]

/-- Entry `y` of the block the body stores is entry `i` of the whole product of `X` and `Wt`, as soon as the left block's
    row `y₀` is row `i₀` of `X` (`h0`) and the right block's column `y₁` is column `i₁` of `Wt` (`h1`), position by position
    along the contraction. -/
theorem block_entry (X : FVec Ideal Cert.ReferenceIdeal.S50000x256 .f32)
    (Wt : FVec Ideal Cert.ReferenceIdeal.S256x64 .f32)
    (x0 : Vec Ideal Cert.KernelIdeal.S2000x256 .f32) (x1 : Vec Ideal Cert.KernelIdeal.S256x64 .f32)
    (y : Cert.KernelIdeal.S2000x64.Idx) (i : Cert.ReferenceIdeal.S50000x64.Idx)
    (h0 : ∀ (a : Cert.KernelIdeal.S2000x256.Idx) (k : Fin 256), (a 0).val = (y 0).val → (a 1).val = k.val →
      x0 a = X (Cert.ReferenceIdeal.Read.lidx_main_v50 i k))
    (h1 : ∀ (a : Cert.KernelIdeal.S256x64.Idx) (k : Fin 256), (a 0).val = k.val → (a 1).val = (y 1).val →
      x1 a = Wt (Cert.ReferenceIdeal.Read.ridx_main_v50 i k)) :
    Cert.KernelIdeal.Gen.k1_pay1 (F := Ideal) x0 x1 y = Host.dotGeneral (F := Ideal) Cert.ReferenceIdeal.dot_S50000x256_S256x64_S50000x64_1_0_0_1_n_n none X Wt i := by
  rw [whole_apply]
  unfold Cert.KernelIdeal.Gen.k1_pay1
  rw [shapeCast_self]
  refine (Ideal.matmul_constant_zero_apply Cert.KernelIdeal.dot_S2000x256_S256x64_S2000x64_1_0_0_1_n_n none _ _ y).trans ?_
  rw [← Equiv.sum_comp (contrEquiv1 Cert.KernelIdeal.dot_S2000x256_S256x64_S2000x64_1_0_0_1_n_n 256 rfl rfl).symm]
  refine Finset.sum_congr rfl fun k _ => ?_
  have hk := contrEquiv1_symm_val Cert.KernelIdeal.dot_S2000x256_S256x64_S2000x64_1_0_0_1_n_n 256 rfl rfl k
  show x0 _ * x1 _ = _
  rw [h0 _ k (lhs_row _ _) ((lhs_col _ _).trans hk), h1 _ k ((rhs_row _ _).trans hk) (rhs_col _ _)]

end Cert.Gcn.Dot1

end
-- ==== Proof.Region1.lean ====
/-
  The second matmul region, from its blocks to its output array.

  The grid has 25 points; point t reads rows 2000·t … 2000·t + 1999 of the left operand and the whole right operand,
  and writes back rows 2000·t … 2000·t + 1999 of the output. Each written block is the matching block of the whole
  product of the two operand arrays as the region finds them (one entry at a time, by the block-entry lemma), and the
  25 blocks cover all 50000 rows: row r lies in the block of point r / 2000. So after the region the output array is
  the whole product.
-/
import proofs.«169771_j18193481466190_1_alg».proof.Proof.Gen.KernelIdeal.Frame
import proofs.«169771_j18193481466190_1_alg».proof.Proof.Dot1
import Idealize.ShloMosaic.Lib.Pipeline.Value

set_option maxRecDepth 16384

noncomputable section

namespace Cert.Gcn.Region1

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The whole product of the two operand arrays as the region finds them. -/
abbrev product (c : Dev nD) : Buf (Elt Ideal) ((c : Thread nD τ).loc main_v50) :=
  Host.dotGeneral (F := Ideal) (φ₁ := .f32) (φ₂ := .f32) Cert.ReferenceIdeal.dot_S50000x256_S256x64_S50000x64_1_0_0_1_n_n none (V c main_v49) (V c main_arg4)

/-- The index maps over the 25 points: the left operand's row block moves with the output's, the right operand stays
    whole, and every block sits in column block 0. -/
theorem idx_facts : ∀ t : Fin cfg1.N, win1_0.index t (0 : Fin 2) = win1_2.index t (0 : Fin 2)
    ∧ win1_0.index t (1 : Fin 2) = 0 ∧ win1_1.index t (0 : Fin 2) = 0 ∧ win1_1.index t (1 : Fin 2) = 0
    ∧ win1_2.index t (1 : Fin 2) = 0 ∧ win1_2.index t (0 : Fin 2) ≤ 24 :=
  (by decide +kernel : ∀ t : Fin grid1.N, _)

/-- Every row block is some point's. -/
theorem idx_onto : ∀ q0 : Fin 25, ∃ t : Fin cfg1.N, win1_2.index t = ![q0.val, 0] :=
  (by decide +kernel : ∀ q0 : Fin 25, ∃ t : Fin grid1.N, win1_2.index t = ![q0.val, 0])

/-- What point `t` writes back is block `t` of the whole product. -/
theorem flushed_eq (c : Dev nD) (t : Fin cfg1.N) :
    (dat1 V c).flushed 2 t = ((cfg1.win 2).blk t).view.read (Elt Ideal) (product V c) := by
  show (cfg1.win 2).cut (grid1.coords t) ((dat1 V c).after 2 t) = _
  rw [after1_2]
  unfold out1_2
  rw [View.canon_unit_zero hz]
  simp only [View.ld_unit_zero (S := S2000x256) hz, View.ld_unit_zero (S := S256x64) hz]
  obtain ⟨e0, e1, e2, e3, e4, e5⟩ := idx_facts t
  funext y
  show k1_pay1 (F := Ideal) (iblk1 V c 0 t) (iblk1 V c 1 t) y = product V c (((cfg1.win 2).blk t).view.emb y)
  refine Cert.Gcn.Dot1.block_entry (V c main_v49) (V c main_arg4) (iblk1 V c 0 t) (iblk1 V c 1 t) y _ (fun a k ha0 ha1 => ?_) (fun a k ha0 ha1 => ?_)
  · show V c main_v49 (((cfg1.win 0).blk t).view.emb a) = V c main_v49 (Cert.ReferenceIdeal.Read.lidx_main_v50 (((cfg1.win 2).blk t).view.emb y) k)
    refine congrArg (V c main_v49) ?_
    funext d; apply Fin.ext
    match d with
    | ⟨0, _⟩ => show win1_0.index t (0 : Fin 2) * 2000 + 1 * (a 0).val = win1_2.index t (0 : Fin 2) * 2000 + 1 * (y 0).val; omega
    | ⟨1, _⟩ => show win1_0.index t (1 : Fin 2) * 256 + 1 * (a 1).val = k.val; omega
  · show V c main_arg4 (((cfg1.win 1).blk t).view.emb a) = V c main_arg4 (Cert.ReferenceIdeal.Read.ridx_main_v50 (((cfg1.win 2).blk t).view.emb y) k)
    refine congrArg (V c main_arg4) ?_
    funext d; apply Fin.ext
    match d with
    | ⟨0, _⟩ => show win1_1.index t (0 : Fin 2) * 256 + 1 * (a 0).val = k.val; omega
    | ⟨1, _⟩ => show win1_1.index t (1 : Fin 2) * 64 + 1 * (a 1).val = win1_2.index t (1 : Fin 2) * 64 + 1 * (y 1).val; omega

/-- An index of the output array is in point `t`'s block iff each coordinate is in the block's range on its axis. -/
theorem mem_blk (t : Fin cfg1.N) (i : S50000x64.Idx) :
    i ∈ ((cfg1.win 2).blk t).view.set ↔ ∀ a : Fin 2, win1_2.index t a * S2000x64.size a ≤ (i a).val ∧ (i a).val < win1_2.index t a * S2000x64.size a + S2000x64.size a := by
  show i ∈ ((View.whole main_v50).slice (win1_2.rect t)).set ↔ _
  rw [View.set_slice_whole, Rect.mem_set_unit]
  exact Iff.rfl

/-- Row r of the output lies in the block of point r / 2000. -/
theorem cover (i : S50000x64.Idx) : ∃ t : Fin cfg1.N, (cfg1.win 2).flush t = true ∧ i ∈ ((cfg1.win 2).blk t).view.set := by
  have hi0 : (i 0).val < 50000 := (i 0).isLt
  have hi1 : (i 1).val < 64 := (i 1).isLt
  obtain ⟨t, ht⟩ := idx_onto ⟨(i 0).val / 2000, by omega⟩
  have q0 : win1_2.index t (0 : Fin 2) = (i 0).val / 2000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 64 ≤ (i 1).val ∧ (i 1).val < win1_2.index t (1 : Fin 2) * 64 + 64; omega

/-- After the region its output array is the whole product of its operand arrays. -/
theorem final (c : Dev nD) : (dat1 V c).arrAt 2 cfg1.N = product V c :=
  (dat1 V c).arrAt_eq_of_cover 2 (product V c) (fun t _ => flushed_eq V c t) cover

end Cert.Gcn.Region1

end
-- ==== Proof.Host.lean ====
/-
  The host operations of the idealized kernel program, read at the buffers the value claim needs.

  The program's host operations are those of the reference: the source and destination node of every edge (the
  two rows of the edge array), the edge weights (the reciprocal square roots of the clamped out-degree of the source
  and in-degree of the destination, multiplied), and after each dense product the same gather by source node, scaling
  by the edge weight, summation into destination nodes, bias, and (first layer) clamp at zero. Nothing here opens a
  gather, a scatter-sum or a reciprocal square root: each buffer is shown to hold the reference's own stage of the same
  arguments, by running the host operations symbolically and comparing the two terms operation by operation. The
  two dense products come from the matmul regions, whose output arrays are the whole products of their operands.
-/
import proofs.«169771_j18193481466190_1_alg».proof.Proof.Gen.KernelIdeal.Frame
import proofs.«169771_j18193481466190_1_alg».proof.Proof.Gen.ReferenceIdeal.Read
import proofs.«169771_j18193481466190_1_alg».proof.Proof.Region0
import proofs.«169771_j18193481466190_1_alg».proof.Proof.Region1
import Idealize.ShloMosaic.Lib.StableHlo.Run

set_option maxRecDepth 16384

noncomputable section

namespace Cert.Gcn.Host

open Cert.KernelIdeal Cert.KernelIdeal.Gen Idealize.ShloMosaic Idealize.ShloMosaic.TcCoe Idealize.SL.Sem
open Idealize.ShloMosaic.StableHlo

/-! ## The shared host operations, stage by stage

The kernel program's host operations after each region are, one at a time, the reference's: the same operation
with the same dimension numbers applied to the same operands. Stated over the reference's stages of arbitrary
arguments. -/

section Glue

variable (x0 : (⟨Cert.ReferenceIdeal.S50000x256, .f32⟩ : BufTy).Contents (Elt Ideal)) (e : (⟨Cert.ReferenceIdeal.S2x800000, .i32⟩ : BufTy).Contents (Elt Ideal)) (x2 : (⟨Cert.ReferenceIdeal.S256x256, .f32⟩ : BufTy).Contents (Elt Ideal)) (x3 : (⟨Cert.ReferenceIdeal.S256, .f32⟩ : BufTy).Contents (Elt Ideal)) (x4 : (⟨Cert.ReferenceIdeal.S256x64, .f32⟩ : BufTy).Contents (Elt Ideal)) (x5 : (⟨Cert.ReferenceIdeal.S64, .f32⟩ : BufTy).Contents (Elt Ideal))

/-- A source node index, with a negative one wrapped round by the node count, as a column: the first layer's … -/
theorem wrap_src1 : (broadcastInDim Cert.KernelIdeal.S800000x1 ![0] Cert.KernelIdeal.Gen.bcast_S800000_S800000x1_0 (select (cmpi .slt (Cert.ReferenceIdeal.Read.val_main_v1 (F := Ideal) e) (broadcastInDim Cert.KernelIdeal.S800000 ![] Cert.KernelIdeal.Gen.bcast_S_S800000 (constantI Cert.KernelIdeal.S_ 32 0#32))) (addi (Cert.ReferenceIdeal.Read.val_main_v1 (F := Ideal) e) (broadcastInDim Cert.KernelIdeal.S800000 ![] Cert.KernelIdeal.Gen.bcast_S_S800000 (constantI Cert.KernelIdeal.S_ 32 50000#32))) (Cert.ReferenceIdeal.Read.val_main_v1 (F := Ideal) e))) = (Cert.ReferenceIdeal.Read.val_main_v39 (F := Ideal) e) := rfl
/-- … and the second layer's (the same function of the edge array under another name). -/
theorem wrap_src2 : (broadcastInDim Cert.KernelIdeal.S800000x1 ![0] Cert.KernelIdeal.Gen.bcast_S800000_S800000x1_0 (select (cmpi .slt (Cert.ReferenceIdeal.Read.val_main_v1 (F := Ideal) e) (broadcastInDim Cert.KernelIdeal.S800000 ![] Cert.KernelIdeal.Gen.bcast_S_S800000 (constantI Cert.KernelIdeal.S_ 32 0#32))) (addi (Cert.ReferenceIdeal.Read.val_main_v1 (F := Ideal) e) (broadcastInDim Cert.KernelIdeal.S800000 ![] Cert.KernelIdeal.Gen.bcast_S_S800000 (constantI Cert.KernelIdeal.S_ 32 50000#32))) (Cert.ReferenceIdeal.Read.val_main_v1 (F := Ideal) e))) = (Cert.ReferenceIdeal.Read.val_main_v56 (F := Ideal) e) := rfl

/-- First layer: the rows of the dense product gathered by source node, -/
theorem gather1 : Host.gather Cert.KernelIdeal.gather_S50000x256_S800000x1_S800000x256_1_0_n_n_0_1_1256 (Cert.ReferenceIdeal.Read.val_main_v33 (F := Ideal) x0 x2) (Cert.ReferenceIdeal.Read.val_main_v39 (F := Ideal) e) = (Cert.ReferenceIdeal.Read.val_main_v40 (F := Ideal) x0 e x2) := rfl
/-- weighted by the edge weights, -/
theorem weigh1 : mulf (F := Ideal) (φ := .f32) (Cert.ReferenceIdeal.Read.val_main_v40 (F := Ideal) x0 e x2) (broadcastInDim Cert.KernelIdeal.S800000x256 ![0, 1] Cert.KernelIdeal.Gen.bcast_S800000x1_S800000x256_0_1 (Cert.ReferenceIdeal.Read.val_main_v32 (F := Ideal) e)) = (Cert.ReferenceIdeal.Read.val_main_v42 (F := Ideal) x0 e x2) := rfl
/-- summed into the destination nodes, -/
theorem sum1 : Host.scatterAdd (F := Ideal) Cert.KernelIdeal.scatter_S50000x256_S800000x1_S800000x256_1_0_0_1 (broadcastInDim Cert.KernelIdeal.S50000x256 ![] Cert.KernelIdeal.Gen.bcast_S_S50000x256 (constant (F := Ideal) Cert.KernelIdeal.S_ .f32 0x00000000#32)) (broadcastInDim Cert.KernelIdeal.S800000x1 ![0] Cert.KernelIdeal.Gen.bcast_S800000_S800000x1_0 (Cert.ReferenceIdeal.Read.val_main_v3 (F := Ideal) e)) (Cert.ReferenceIdeal.Read.val_main_v42 (F := Ideal) x0 e x2) = (Cert.ReferenceIdeal.Read.val_main_v45 (F := Ideal) x0 e x2) := rfl
/-- and biased. -/
theorem bias1 : addf (F := Ideal) (φ := .f32) (Cert.ReferenceIdeal.Read.val_main_v45 (F := Ideal) x0 e x2) (broadcastInDim Cert.KernelIdeal.S50000x256 ![0, 1] Cert.KernelIdeal.Gen.bcast_S1x256_S50000x256_0_1 (broadcastInDim Cert.KernelIdeal.S1x256 ![1] Cert.KernelIdeal.Gen.bcast_S256_S1x256_1 x3)) = (Cert.ReferenceIdeal.Read.val_main_v48 (F := Ideal) x0 e x2 x3) := rfl

/-- Second layer: gathered, -/
theorem gather2 : Host.gather Cert.KernelIdeal.gather_S50000x64_S800000x1_S800000x64_1_0_n_n_0_1_164 (Cert.ReferenceIdeal.Read.val_main_v50 (F := Ideal) x0 e x2 x3 x4) (Cert.ReferenceIdeal.Read.val_main_v56 (F := Ideal) e) = (Cert.ReferenceIdeal.Read.val_main_v57 (F := Ideal) x0 e x2 x3 x4) := rfl
/-- weighted, -/
theorem weigh2 : mulf (F := Ideal) (φ := .f32) (Cert.ReferenceIdeal.Read.val_main_v57 (F := Ideal) x0 e x2 x3 x4) (broadcastInDim Cert.KernelIdeal.S800000x64 ![0, 1] Cert.KernelIdeal.Gen.bcast_S800000x1_S800000x64_0_1 (Cert.ReferenceIdeal.Read.val_main_v32 (F := Ideal) e)) = (Cert.ReferenceIdeal.Read.val_main_v59 (F := Ideal) x0 e x2 x3 x4) := rfl
/-- summed, -/
theorem sum2 : Host.scatterAdd (F := Ideal) Cert.KernelIdeal.scatter_S50000x64_S800000x1_S800000x64_1_0_0_1 (broadcastInDim Cert.KernelIdeal.S50000x64 ![] Cert.KernelIdeal.Gen.bcast_S_S50000x64 (constant (F := Ideal) Cert.KernelIdeal.S_ .f32 0x00000000#32)) (broadcastInDim Cert.KernelIdeal.S800000x1 ![0] Cert.KernelIdeal.Gen.bcast_S800000_S800000x1_0 (Cert.ReferenceIdeal.Read.val_main_v3 (F := Ideal) e)) (Cert.ReferenceIdeal.Read.val_main_v59 (F := Ideal) x0 e x2 x3 x4) = (Cert.ReferenceIdeal.Read.val_main_v62 (F := Ideal) x0 e x2 x3 x4) := rfl
/-- biased. -/
theorem bias2 : addf (F := Ideal) (φ := .f32) (Cert.ReferenceIdeal.Read.val_main_v62 (F := Ideal) x0 e x2 x3 x4) (broadcastInDim Cert.KernelIdeal.S50000x64 ![0, 1] Cert.KernelIdeal.Gen.bcast_S1x64_S50000x64_0_1 (broadcastInDim Cert.KernelIdeal.S1x64 ![1] Cert.KernelIdeal.Gen.bcast_S64_S1x64_1 x5)) = (Cert.ReferenceIdeal.Read.val_main_v65 (F := Ideal) x0 e x2 x3 x4 x5) := rfl

end Glue

/-! ## Each stretch of host operations after a region, run from any buffer contents

The contents `V` hold, at the buffers the stretch reads, the reference's stages of some arguments; the stretch then
leaves the reference's next stage. -/

/-- The first layer after its dense product, up to the bias. -/
theorem layer1_tail (V : Valuation τ sig (Elt Ideal)) (x0 : (⟨Cert.ReferenceIdeal.S50000x256, .f32⟩ : BufTy).Contents (Elt Ideal)) (e : (⟨Cert.ReferenceIdeal.S2x800000, .i32⟩ : BufTy).Contents (Elt Ideal)) (x2 : (⟨Cert.ReferenceIdeal.S256x256, .f32⟩ : BufTy).Contents (Elt Ideal)) (x3 : (⟨Cert.ReferenceIdeal.S256, .f32⟩ : BufTy).Contents (Elt Ideal))
    (h33 : V (Proc.devRef .tc main_v33) = Cert.ReferenceIdeal.Read.val_main_v33 (F := Ideal) x0 x2)
    (h1 : V (Proc.devRef .tc main_v1) = Cert.ReferenceIdeal.Read.val_main_v1 (F := Ideal) e)
    (h3 : V (Proc.devRef .tc main_v3) = Cert.ReferenceIdeal.Read.val_main_v3 (F := Ideal) e)
    (h32 : V (Proc.devRef .tc main_v32) = Cert.ReferenceIdeal.Read.val_main_v32 (F := Ideal) e)
    (ha3 : V (Proc.devRef .tc main_arg3) = x3) :
    StableHlo.after hostOps1 V (Proc.devRef .tc main_v48) = Cert.ReferenceIdeal.Read.val_main_v48 (F := Ideal) x0 e x2 x3 := by
  dsimp only [hostOps1]
  after_results_simp
  rw [h33, h1, h3, h32, ha3]
  rw [wrap_src1, gather1, weigh1, sum1, bias1]

/-- Reading or writing a buffer through a typed reference to it is the identity: the buffer's type IS the value's. -/
theorem ofBuf_v48 (h1 h2 h3) (v : (⟨S50000x256, .f32⟩ : BufTy).Contents (Elt Ideal)) :
    (StableHlo.TRef.of (sig := sig) (T := ⟨S50000x256, .f32⟩) main_v48 h1 h2 h3).ofBuf v = v := rfl
theorem toBuf_v49 (h1 h2 h3) (v : (⟨S50000x256, .f32⟩ : BufTy).Contents (Elt Ideal)) :
    (StableHlo.TRef.of (sig := sig) (T := ⟨S50000x256, .f32⟩) main_v49 h1 h2 h3).toBuf v = v := rfl
theorem ofBuf_zeros (h1 h2 h3) (v : (⟨S50000x256, .f32⟩ : BufTy).Contents (Elt Ideal)) :
    (StableHlo.TRef.of (sig := sig) (T := ⟨S50000x256, .f32⟩) main_call0_v0 h1 h2 h3).ofBuf v = v := rfl
theorem toBuf_zeros (h1 h2 h3) (v : (⟨S50000x256, .f32⟩ : BufTy).Contents (Elt Ideal)) :
    (StableHlo.TRef.of (sig := sig) (T := ⟨S50000x256, .f32⟩) main_call0_v0 h1 h2 h3).toBuf v = v := rfl
theorem ofBuf_zero (h1 h2 h3) (v : (⟨S_, .f32⟩ : BufTy).Contents (Elt Ideal)) :
    (StableHlo.TRef.of (sig := sig) (T := ⟨S_, .f32⟩) main_call0_cst h1 h2 h3).ofBuf v = v := rfl
theorem toBuf_zero (h1 h2 h3) (v : (⟨S_, .f32⟩ : BufTy).Contents (Elt Ideal)) :
    (StableHlo.TRef.of (sig := sig) (T := ⟨S_, .f32⟩) main_call0_cst h1 h2 h3).toBuf v = v := rfl

/-- The clamp at zero. -/
theorem relu_step (V : Valuation τ sig (Elt Ideal)) (x0 : (⟨Cert.ReferenceIdeal.S50000x256, .f32⟩ : BufTy).Contents (Elt Ideal)) (e : (⟨Cert.ReferenceIdeal.S2x800000, .i32⟩ : BufTy).Contents (Elt Ideal)) (x2 : (⟨Cert.ReferenceIdeal.S256x256, .f32⟩ : BufTy).Contents (Elt Ideal)) (x3 : (⟨Cert.ReferenceIdeal.S256, .f32⟩ : BufTy).Contents (Elt Ideal))
    (h48 : V (Proc.devRef .tc main_v48) = Cert.ReferenceIdeal.Read.val_main_v48 (F := Ideal) x0 e x2 x3) :
    StableHlo.after hostOps1_1 V (Proc.devRef .tc main_v49) = Cert.ReferenceIdeal.Read.val_main_v49 (F := Ideal) x0 e x2 x3 := by
  dsimp only [hostOps1_1]
  after_results_simp
  rw [h48]
  rw [toBuf_v49, ofBuf_v48, ofBuf_zeros, toBuf_zeros, ofBuf_zero, toBuf_zero]
  rfl

/-- The second layer after its dense product. -/
theorem layer2_tail (V : Valuation τ sig (Elt Ideal)) (x0 : (⟨Cert.ReferenceIdeal.S50000x256, .f32⟩ : BufTy).Contents (Elt Ideal)) (e : (⟨Cert.ReferenceIdeal.S2x800000, .i32⟩ : BufTy).Contents (Elt Ideal)) (x2 : (⟨Cert.ReferenceIdeal.S256x256, .f32⟩ : BufTy).Contents (Elt Ideal)) (x3 : (⟨Cert.ReferenceIdeal.S256, .f32⟩ : BufTy).Contents (Elt Ideal)) (x4 : (⟨Cert.ReferenceIdeal.S256x64, .f32⟩ : BufTy).Contents (Elt Ideal)) (x5 : (⟨Cert.ReferenceIdeal.S64, .f32⟩ : BufTy).Contents (Elt Ideal))
    (h50 : V (Proc.devRef .tc main_v50) = Cert.ReferenceIdeal.Read.val_main_v50 (F := Ideal) x0 e x2 x3 x4)
    (h1 : V (Proc.devRef .tc main_v1) = Cert.ReferenceIdeal.Read.val_main_v1 (F := Ideal) e)
    (h3 : V (Proc.devRef .tc main_v3) = Cert.ReferenceIdeal.Read.val_main_v3 (F := Ideal) e)
    (h32 : V (Proc.devRef .tc main_v32) = Cert.ReferenceIdeal.Read.val_main_v32 (F := Ideal) e)
    (ha5 : V (Proc.devRef .tc main_arg5) = x5) :
    StableHlo.after hostOps2 V (Proc.devRef .tc main_v65) = Cert.ReferenceIdeal.Read.val_main_v65 (F := Ideal) x0 e x2 x3 x4 x5 := by
  dsimp only [hostOps2]
  after_results_simp
  rw [h50, h1, h3, h32, ha5]
  rw [wrap_src2, gather2, weigh2, sum2, bias2]

variable (m : (ℓ : Loc nD τ sig) → Buf (Elt Ideal) ℓ) (ρ : Dev nD → PrngReg)

/-! ## Before the first region: the launch contents pushed through the first stretch of host operations -/

/-- No host operation before the first region writes argument 0. -/
theorem W1_arg0 (c : Dev nD) : W1 m ρ c (Proc.devRef .tc main_arg0) = m ((c : Thread nD τ).loc main_arg0) := by
  show StableHlo.after hostOps0 (W0 m ρ c) (Proc.devRef .tc main_arg0) = _
  dsimp only [hostOps0]
  after_results_simp <;> rfl

/-- No host operation before the first region writes argument 2. -/
theorem W1_arg2 (c : Dev nD) : W1 m ρ c (Proc.devRef .tc main_arg2) = m ((c : Thread nD τ).loc main_arg2) := by
  show StableHlo.after hostOps0 (W0 m ρ c) (Proc.devRef .tc main_arg2) = _
  dsimp only [hostOps0]
  after_results_simp <;> rfl

/-- No host operation before the first region writes argument 3. -/
theorem W1_arg3 (c : Dev nD) : W1 m ρ c (Proc.devRef .tc main_arg3) = m ((c : Thread nD τ).loc main_arg3) := by
  show StableHlo.after hostOps0 (W0 m ρ c) (Proc.devRef .tc main_arg3) = _
  dsimp only [hostOps0]
  after_results_simp <;> rfl

/-- No host operation before the first region writes argument 4. -/
theorem W1_arg4 (c : Dev nD) : W1 m ρ c (Proc.devRef .tc main_arg4) = m ((c : Thread nD τ).loc main_arg4) := by
  show StableHlo.after hostOps0 (W0 m ρ c) (Proc.devRef .tc main_arg4) = _
  dsimp only [hostOps0]
  after_results_simp <;> rfl

/-- No host operation before the first region writes argument 5. -/
theorem W1_arg5 (c : Dev nD) : W1 m ρ c (Proc.devRef .tc main_arg5) = m ((c : Thread nD τ).loc main_arg5) := by
  show StableHlo.after hostOps0 (W0 m ρ c) (Proc.devRef .tc main_arg5) = _
  dsimp only [hostOps0]
  after_results_simp <;> rfl

/-- The source node of every edge: row 0 of the edge array. -/
theorem W1_v1 (c : Dev nD) : W1 m ρ c (Proc.devRef .tc main_v1) = Cert.ReferenceIdeal.Read.val_main_v1 (F := Ideal) (m ((c : Thread nD τ).loc main_arg1)) := by
  show StableHlo.after hostOps0 (W0 m ρ c) (Proc.devRef .tc main_v1) = _
  dsimp only [hostOps0]
  after_results_simp <;> rfl

/-- The destination node of every edge: row 1 of the edge array. -/
theorem W1_v3 (c : Dev nD) : W1 m ρ c (Proc.devRef .tc main_v3) = Cert.ReferenceIdeal.Read.val_main_v3 (F := Ideal) (m ((c : Thread nD τ).loc main_arg1)) := by
  show StableHlo.after hostOps0 (W0 m ρ c) (Proc.devRef .tc main_v3) = _
  dsimp only [hostOps0]
  after_results_simp <;> rfl

/-- The edge weights, as a column. -/
theorem W1_v32 (c : Dev nD) : W1 m ρ c (Proc.devRef .tc main_v32) = Cert.ReferenceIdeal.Read.val_main_v32 (F := Ideal) (m ((c : Thread nD τ).loc main_arg1)) := by
  show StableHlo.after hostOps0 (W0 m ρ c) (Proc.devRef .tc main_v32) = _
  dsimp only [hostOps0]
  after_results_simp <;> rfl

/-! ## Buffers the later segments leave alone -/

/-- The host operations between the two regions do not write `main_v1`. -/
theorem W4_keep_v1 (c : Dev nD) : W4 m ρ c (Proc.devRef .tc main_v1) = W2 m ρ c (Proc.devRef .tc main_v1) := by
  show StableHlo.after hostOps1_1 (StableHlo.after hostOps1 (W2 m ρ c)) (Proc.devRef .tc main_v1) = _
  dsimp only [hostOps1_1, hostOps1]
  after_results_simp <;> rfl

/-- The host operations between the two regions do not write `main_v3`. -/
theorem W4_keep_v3 (c : Dev nD) : W4 m ρ c (Proc.devRef .tc main_v3) = W2 m ρ c (Proc.devRef .tc main_v3) := by
  show StableHlo.after hostOps1_1 (StableHlo.after hostOps1 (W2 m ρ c)) (Proc.devRef .tc main_v3) = _
  dsimp only [hostOps1_1, hostOps1]
  after_results_simp <;> rfl

/-- The host operations between the two regions do not write `main_v32`. -/
theorem W4_keep_v32 (c : Dev nD) : W4 m ρ c (Proc.devRef .tc main_v32) = W2 m ρ c (Proc.devRef .tc main_v32) := by
  show StableHlo.after hostOps1_1 (StableHlo.after hostOps1 (W2 m ρ c)) (Proc.devRef .tc main_v32) = _
  dsimp only [hostOps1_1, hostOps1]
  after_results_simp <;> rfl

/-- The host operations between the two regions do not write `main_arg4`. -/
theorem W4_keep_arg4 (c : Dev nD) : W4 m ρ c (Proc.devRef .tc main_arg4) = W2 m ρ c (Proc.devRef .tc main_arg4) := by
  show StableHlo.after hostOps1_1 (StableHlo.after hostOps1 (W2 m ρ c)) (Proc.devRef .tc main_arg4) = _
  dsimp only [hostOps1_1, hostOps1]
  after_results_simp <;> rfl

/-- The host operations between the two regions do not write `main_arg5`. -/
theorem W4_keep_arg5 (c : Dev nD) : W4 m ρ c (Proc.devRef .tc main_arg5) = W2 m ρ c (Proc.devRef .tc main_arg5) := by
  show StableHlo.after hostOps1_1 (StableHlo.after hostOps1 (W2 m ρ c)) (Proc.devRef .tc main_arg5) = _
  dsimp only [hostOps1_1, hostOps1]
  after_results_simp <;> rfl

theorem W2_v1 (c : Dev nD) : W2 m ρ c (Proc.devRef .tc main_v1) = Cert.ReferenceIdeal.Read.val_main_v1 (F := Ideal) (m ((c : Thread nD τ).loc main_arg1)) :=
  (W2_of_ne m ρ c main_v1 (by decide)).trans (W1_v1 m ρ c)
theorem W5_v1 (c : Dev nD) : W5 m ρ c (Proc.devRef .tc main_v1) = Cert.ReferenceIdeal.Read.val_main_v1 (F := Ideal) (m ((c : Thread nD τ).loc main_arg1)) :=
  (W5_of_ne m ρ c main_v1 (by decide)).trans ((W4_keep_v1 m ρ c).trans (W2_v1 m ρ c))

theorem W2_v3 (c : Dev nD) : W2 m ρ c (Proc.devRef .tc main_v3) = Cert.ReferenceIdeal.Read.val_main_v3 (F := Ideal) (m ((c : Thread nD τ).loc main_arg1)) :=
  (W2_of_ne m ρ c main_v3 (by decide)).trans (W1_v3 m ρ c)
theorem W5_v3 (c : Dev nD) : W5 m ρ c (Proc.devRef .tc main_v3) = Cert.ReferenceIdeal.Read.val_main_v3 (F := Ideal) (m ((c : Thread nD τ).loc main_arg1)) :=
  (W5_of_ne m ρ c main_v3 (by decide)).trans ((W4_keep_v3 m ρ c).trans (W2_v3 m ρ c))

theorem W2_v32 (c : Dev nD) : W2 m ρ c (Proc.devRef .tc main_v32) = Cert.ReferenceIdeal.Read.val_main_v32 (F := Ideal) (m ((c : Thread nD τ).loc main_arg1)) :=
  (W2_of_ne m ρ c main_v32 (by decide)).trans (W1_v32 m ρ c)
theorem W5_v32 (c : Dev nD) : W5 m ρ c (Proc.devRef .tc main_v32) = Cert.ReferenceIdeal.Read.val_main_v32 (F := Ideal) (m ((c : Thread nD τ).loc main_arg1)) :=
  (W5_of_ne m ρ c main_v32 (by decide)).trans ((W4_keep_v32 m ρ c).trans (W2_v32 m ρ c))

theorem W2_arg3 (c : Dev nD) : W2 m ρ c (Proc.devRef .tc main_arg3) = m ((c : Thread nD τ).loc main_arg3) :=
  (W2_of_ne m ρ c main_arg3 (by decide)).trans (W1_arg3 m ρ c)
theorem W4_arg4 (c : Dev nD) : W4 m ρ c (Proc.devRef .tc main_arg4) = m ((c : Thread nD τ).loc main_arg4) :=
  (W4_keep_arg4 m ρ c).trans ((W2_of_ne m ρ c main_arg4 (by decide)).trans (W1_arg4 m ρ c))
theorem W5_arg5 (c : Dev nD) : W5 m ρ c (Proc.devRef .tc main_arg5) = m ((c : Thread nD τ).loc main_arg5) :=
  (W5_of_ne m ρ c main_arg5 (by decide)).trans ((W4_keep_arg5 m ρ c).trans ((W2_of_ne m ρ c main_arg5 (by decide)).trans (W1_arg5 m ρ c)))

/-! ## The chain: first product, first layer's tail, second product, second layer's tail -/

/-- After the first region its output holds the first layer's dense product of the feature and weight arguments. -/
theorem W2_product (c : Dev nD) : W2 m ρ c (Proc.devRef .tc main_v33)
    = Cert.ReferenceIdeal.Read.val_main_v33 (F := Ideal) (m ((c : Thread nD τ).loc main_arg0)) (m ((c : Thread nD τ).loc main_arg2)) := by
  refine (W2_arr m ρ c 2).trans ((Cert.Gcn.Region0.final (V1 m ρ) c).trans ?_)
  show Host.dotGeneral (F := Ideal) (φ₁ := .f32) (φ₂ := .f32) Cert.ReferenceIdeal.dot_S50000x256_S256x256_S50000x256_1_0_0_1_n_n none
      (W1 m ρ c (Proc.devRef .tc main_arg0)) (W1 m ρ c (Proc.devRef .tc main_arg2)) = _
  rw [W1_arg0, W1_arg2]
  rfl

/-- Before the second region its left operand holds the first layer's output: gathered, weighted, summed per
    destination node, biased and clamped at zero. -/
theorem W4_hidden (c : Dev nD) : W4 m ρ c (Proc.devRef .tc main_v49)
    = Cert.ReferenceIdeal.Read.val_main_v49 (F := Ideal) (m ((c : Thread nD τ).loc main_arg0)) (m ((c : Thread nD τ).loc main_arg1)) (m ((c : Thread nD τ).loc main_arg2)) (m ((c : Thread nD τ).loc main_arg3)) :=
  relu_step (W3 m ρ c) _ _ _ _
    (layer1_tail (W2 m ρ c) _ _ _ _ (W2_product m ρ c) (W2_v1 m ρ c) (W2_v3 m ρ c) (W2_v32 m ρ c) (W2_arg3 m ρ c))

/-- After the second region its output holds the second layer's dense product. -/
theorem W5_product (c : Dev nD) : W5 m ρ c (Proc.devRef .tc main_v50)
    = Cert.ReferenceIdeal.Read.val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W5_arr m ρ c 2).trans ((Cert.Gcn.Region1.final (V4 m ρ) c).trans ?_)
  show Host.dotGeneral (F := Ideal) (φ₁ := .f32) (φ₂ := .f32) Cert.ReferenceIdeal.dot_S50000x256_S256x64_S50000x64_1_0_0_1_n_n none
      (W4 m ρ c (Proc.devRef .tc main_v49)) (W4 m ρ c (Proc.devRef .tc main_arg4)) = _
  rw [W4_hidden, W4_arg4]
  rfl

/-- The result buffer after the last stretch of host operations holds the reference's result of the same arguments. -/
theorem W6_result (c : Dev nD) : W6 m ρ c (Proc.devRef .tc main_v65)
    = Cert.ReferenceIdeal.Read.val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  layer2_tail (W5 m ρ c) _ _ _ _ _ _ (W5_product m ρ c) (W5_v1 m ρ c) (W5_v3 m ρ c) (W5_v32 m ρ c) (W5_arg5 m ρ c)

end Cert.Gcn.Host

end
-- ==== Proof.lean ====
/-
  Two-layer graph convolution: the Pallas program against its jnp reference, over the extended reals.

  Both programs compute  out = A·relu(A·(X·W1) + b1)·W2 + b2  where A gathers rows by an edge's source node, scales them by
  the edge weight 1/sqrt(max(outdeg(src),1) · max(indeg(dst),1)) and sums them into the edge's destination node. The two
  programs share every host operation (degrees, weights, gathers, scatter-sums, biases, the clamp at zero) and differ only
  in the two dense products: the reference applies one whole product, the kernel program runs a region that multiplies
  25 blocks of 2000 rows by the whole weight matrix, after rounding both operands to bf16 — a change of float format,
  which is the identity at the ideal values. A block product into a zero accumulator is, entry by entry, the same sum
  over the 256 contracted positions as the whole product's entry, and the 25 blocks cover the 50000 rows. So both
  programs end with the same function of the arguments in the result buffer; no finiteness of the inputs is needed.

  The frames of the two kernel programs are the generated ones; the reference's frame is its generated run with the
  result dropped; the idealization rewrote no operation, so `preserves` is trivial.
-/
import proofs.«169771_j18193481466190_1_alg».proof.Defs
import proofs.«169771_j18193481466190_1_alg».proof.Proof.Gen.Kernel
import proofs.«169771_j18193481466190_1_alg».proof.Proof.Gen.Kernel.Skeleton
import proofs.«169771_j18193481466190_1_alg».proof.Proof.Gen.Kernel.Launch
import proofs.«169771_j18193481466190_1_alg».proof.Proof.Gen.Kernel.Points
import proofs.«169771_j18193481466190_1_alg».proof.Proof.Gen.Kernel.Frame
import proofs.«169771_j18193481466190_1_alg».proof.Proof.Gen.KernelIdeal
import proofs.«169771_j18193481466190_1_alg».proof.Proof.Gen.KernelIdeal.Skeleton
import proofs.«169771_j18193481466190_1_alg».proof.Proof.Gen.KernelIdeal.Launch
import proofs.«169771_j18193481466190_1_alg».proof.Proof.Gen.KernelIdeal.Points
import proofs.«169771_j18193481466190_1_alg».proof.Proof.Gen.KernelIdeal.Frame
import proofs.«169771_j18193481466190_1_alg».proof.Proof.Gen.ReferenceIdeal
import proofs.«169771_j18193481466190_1_alg».proof.Proof.Gen.ReferenceIdeal.Run
import proofs.«169771_j18193481466190_1_alg».proof.Proof.Gen.ReferenceIdeal.Read
import proofs.«169771_j18193481466190_1_alg».proof.Proof.Gen.Pre_finite_inputs
import proofs.«169771_j18193481466190_1_alg».proof.Proof.Run
import proofs.«169771_j18193481466190_1_alg».proof.Proof.Host
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the reference's result function of the (agreeing) arguments in the result
    buffer: the kernel program by its run through both regions and the host operations around them, the reference by
    its own run. -/
theorem algebraic : Cert.algebraic_KernelIdeal_ReferenceIdeal := by
  intro m ρ m' ρ' _ hagree
  refine ⟨fun c => Cert.ReferenceIdeal.Read.val_main_v65 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.Gcn.Host.W6_result m ρ c), (h c).2⟩) (Cert.KernelIdeal.Whole.run_result m ρ)
  · refine (θ_run Cert.ReferenceIdeal.defs _ _).mono (fun r h c => ⟨?_, (h c).2⟩)
      (Cert.ReferenceIdeal.Value.run (F := Ideal) m' ρ')
    refine (h c).1.trans ((Cert.ReferenceIdeal.Read.val_main_v65_eq m' c).trans ?_)
    rw [(hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
